-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S384x1024 : Shape := ⟨2, ![384, 1024]⟩
abbrev S1024 : Shape := ⟨1, ![1024]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x1024 : S_.BroadcastsInDim S384x1024 (![] : Fin 0 → Fin S384x1024.rank)
  reducesTo_S384x1024_S_d0_1 : S384x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S50000x128 .f32) (main_arg1 : IVec S2x600000 32) (main_arg2 : FVec F S384x1024 .f32) (main_arg3 : FVec F S1024 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S384x1024 .f32 := Host.absf main_arg2
  let main_cst_0 : FVec F S_ .f32 := constant S_ .f32 0x7F800000#32
  let main_v5 : FVec F S384x1024 .f32 := broadcastInDim S384x1024 ![] bcast_S_S384x1024 main_cst_0
  let main_v6 : IVec S384x1024 1 := cmpf .olt main_v4 main_v5
  let main_c_1 : IVec S_ 1 := constantI S_ 1 1#1
  let main_v7 : IVec S_ 1 := (fun x v => Host.reduce IntOp.andi x v reducesTo_S384x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S384x1024 : Shape := ⟨2, ![384, 1024]⟩
abbrev S1024 : Shape := ⟨1, ![1024]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x384 : Shape := ⟨2, ![50000, 384]⟩
abbrev S1x1024 : Shape := ⟨2, ![1, 1024]⟩
abbrev S50000x1024 : Shape := ⟨2, ![50000, 1024]⟩
abbrev S2000x384 : Shape := ⟨2, ![2000, 384]⟩
abbrev S2000x1024 : Shape := ⟨2, ![2000, 1024]⟩

abbrev nBuf : Space → Nat
  | .hbm => 63
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S384x1024, .f32⟩
  | .hbm, ⟨3, _⟩ => ⟨S1024, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S_, .f32⟩
  | .hbm, ⟨47, _⟩ => ⟨S600000, .f32⟩
  | .hbm, ⟨48, _⟩ => ⟨S_, .f32⟩
  | .hbm, ⟨49, _⟩ => ⟨S50000, .f32⟩
  | .hbm, ⟨50, _⟩ => ⟨S600000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x384, .f32⟩
  | .hbm, ⟨59, _⟩ => ⟨S50000x384, .bf16⟩
  | .hbm, ⟨60, _⟩ => ⟨S384x1024, .bf16⟩
  | .hbm, ⟨61, _⟩ => ⟨S1x1024, .f32⟩
  | .hbm, ⟨62, _⟩ => ⟨S50000x1024, .f32⟩
  | .local _ .vmem, ⟨0, _⟩ => ⟨S2000x384, .bf16⟩
  | .local _ .vmem, ⟨1, _⟩ => ⟨S2000x384, .bf16⟩
  | .local _ .vmem, ⟨2, _⟩ => ⟨S384x1024, .bf16⟩
  | .local _ .vmem, ⟨3, _⟩ => ⟨S1x1024, .f32⟩
  | .local _ .vmem, ⟨4, _⟩ => ⟨S2000x1024, .f32⟩
  | .local _ .vmem, ⟨5, _⟩ => ⟨S2000x1024, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bitsLt_bf16_f32 : FTy.bits .bf16 < FTy.bits .f32
  shapeCasts_S1024_S1x1024 : S1024.ShapeCasts S1x1024
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x384_S384x1024_S2000x1024_1_0_0_1_n_n_wf : DotDims.WF S2000x384 S384x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .bf16 = 32 ∨ (Rect.block (s := S50000x384) S2000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x1024.size a ≤ S384x1024.size a
  hwx0_1 : ∀ i : grid0.Coords, EltTy.bits .bf16 = 32 ∨ (Rect.block (s := S384x1024) S384x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1024.size a ≤ S50000x1024.size a
  hwx0_3 : ∀ i : grid0.Coords, EltTy.bits .f32 = 32 ∨ (Rect.block (s := S50000x1024) S2000x1024.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x384_S384x1024_S2000x1024_1_0_0_1_n_n : DotDims S2000x384 S384x1024 S2000x1024 where
  lhsContracting := [1]
  rhsContracting := [0]
  lhsNonContracting := [0]
  rhsNonContracting := [1]
  lhsBatch := []
  rhsBatch := []
  wf := dot_S2000x384_S384x1024_S2000x1024_1_0_0_1_n_n_wf

abbrev win0_0 : Pipeline.Window sig grid0 :=
  Pipeline.Window.ofSpec (Memref.whole main_v43) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S384x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S2000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S384x1024 : Shape := ⟨2, ![384, 1024]⟩
abbrev S1024 : Shape := ⟨1, ![1024]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x384 : Shape := ⟨2, ![50000, 384]⟩
abbrev S50000x1024 : Shape := ⟨2, ![50000, 1024]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S384x1024, .f32⟩
  | .hbm, ⟨3, _⟩ => ⟨S1024, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S_, .f32⟩
  | .hbm, ⟨47, _⟩ => ⟨S600000, .f32⟩
  | .hbm, ⟨48, _⟩ => ⟨S_, .f32⟩
  | .hbm, ⟨49, _⟩ => ⟨S50000, .f32⟩
  | .hbm, ⟨50, _⟩ => ⟨S600000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x384, .f32⟩
  | .hbm, ⟨59, _⟩ => ⟨S50000x1024, .f32⟩
  | .hbm, ⟨60, _⟩ => ⟨S1x1024, .f32⟩
  | .hbm, ⟨61, _⟩ => ⟨S50000x1024, .f32⟩
  | .hbm, ⟨62, _⟩ => ⟨S50000x1024, .f32⟩
  | .hbm, ⟨63, _⟩ => ⟨S_, .f32⟩
  | .hbm, ⟨64, _⟩ => ⟨S50000x1024, .f32⟩
  | .hbm, ⟨65, _⟩ => ⟨S50000x1024, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_cst : Ref sig .tc := ⟨.hbm, 63, rfl⟩
abbrev main_call0_v0 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x384_S384x1024_S50000x1024_1_0_0_1_n_n_wf : DotDims.WF S50000x384 S384x1024 S50000x1024 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x384_S384x1024_S50000x1024_1_0_0_1_n_n : DotDims S50000x384 S384x1024 S50000x1024 where
  lhsContracting := [1]
  rhsContracting := [0]
  lhsNonContracting := [0]
  rhsNonContracting := [1]
  lhsBatch := []
  rhsBatch := []
  wf := dot_S50000x384_S384x1024_S50000x1024_1_0_0_1_n_n_wf

class Facts : Prop extends Facts₀ where

variable [Facts]
-- ==== Proof.EntryBits.lean ====
/-
  The state in which the one kernel launch finds the device, and what a run of the launch says about the
  program's argument arrays.

  Before the launch the program runs 58 array operations on the host side: it slices the two rows of the edge
  list, gathers the features of every edge's endpoint, adds them up per node, divides by the node's degree
  (at least one), puts a node's own features beside the two means (a 50000 × 384 matrix), narrows that matrix
  and the weights to the matrix unit's input format, and lays the bias out as a row. Each of these writes a
  buffer of its own and none of them writes an argument, so the launch finds every argument as the program
  was given it; the arrays the launch's four windows slide over are three of those host results and the
  (not yet written) result array.

  A window's block at a grid point is a rectangle of its array. Each of the three input windows is read-only
  for the body, so its staging buffer holds the block of the current point whether or not the point fetched it
  afresh (the weights and the bias row are fetched once, at the first point, and never move).
-/
import proofs.«181198_j19378892439727_1_alg».proof.Proof.Gen.Kernel.Launch
import proofs.«181198_j19378892439727_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations before the launch -/

/-- What core `c`'s buffers hold when the launch begins: the given memory with every host operation's result
    written into that operation's own buffer, in program order. -/
abbrev V (c : Dev nD) (b : Ref sig .tc) : Buf (Elt F) ((c : Thread nD τ).loc b) := StableHlo.after hostOps0 (fun b => m (c, b)) b

/-- No host operation allocates anything: each writes a buffer that exists from the start. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The node features are written by no host operation: the launch finds them as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor is the edge list. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the bias. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`: the rectangle of the window's array, as the launch finds it, that
    the point's block index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window of the feature matrix: its staging buffer holds the point's 2000 rows at every point,
    for any proof data over these arrays whose body leaves the block as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' window: one block, the whole matrix, in place from the first point on. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's window: likewise one block, the whole row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the launch to the argument arrays -/

/-- A run that ends with every array of the launch as the proof data computes it, and every other buffer as
    the launch found it, ends with the four arguments as given: no window slides over an argument, and the
    launch found each argument unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.Kernel.Hand

end
-- ==== Proof.BodyBits.lean ====
/-
  One run of the kernel body.

  The body is handed four whole staging buffers: a block of 2000 rows of the feature matrix, the whole weight
  matrix, the bias row, and the buffer its 2000 × 1024 result block goes into. It loads the three inputs whole,
  multiplies the row block into the weights, adds the bias row to every row, takes the maximum with zero, and
  stores the result over the whole output buffer in a single store. (It also loads the output buffer before
  storing; the loaded value is not used.) So after the body the output buffer holds exactly the stored value, a
  function of the three input blocks alone, and the inputs are as they were.
-/
import proofs.«181198_j19378892439727_1_alg».proof.Proof.Gen.Kernel.Skeleton
import proofs.«181198_j19378892439727_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rRows : Rect S2000x384 := Rect.unit (s := S2000x384) ![0, 0] S2000x384.size inb_S2000x384_S2000x384_0_0
abbrev rWeights : Rect S384x1024 := Rect.unit (s := S384x1024) ![0, 0] S384x1024.size inb_S384x1024_S384x1024_0_0
abbrev rBias : Rect S1x1024 := Rect.unit (s := S1x1024) ![0, 0] S1x1024.size inb_S1x1024_S1x1024_0_0
abbrev rOut : Rect S2000x1024 := Rect.unit (s := S2000x1024) ![0, 0] S2000x1024.size inb_S2000x1024_S2000x1024_0_0

/-! ## What the body leaves in the output buffer -/

/-- The output buffer after the body, from the three input buffers' contents: its one store, of the body's
    arithmetic applied to the three loads, read back as a buffer. -/
def tileOut (x0 : Vec F S2000x384 .bf16) (x1 : Vec F S384x1024 .bf16) (x2 : Vec F S1x1024 .f32) : Vec F S2000x1024 .f32 :=
  View.canon [⟨rOut, k0_pay1 (View.ld x0 rRows) (View.ld x1 rWeights) (View.ld x2 rBias)⟩]

/-- The one store covers the whole buffer. -/
theorem tileOut_cover (p0 : Vec F S2000x1024 .f32) (y : S2000x1024.Idx) :
    ∃ pc ∈ ([⟨rOut, p0⟩] : List (View.Piece (Elt F) S2000x1024 .f32)), y ∈ pc.1.set :=
  View.cover_of_tiled [⟨rOut, p0⟩] S2000x1024.size (by rfl) y

/-! ## The body's triple -/

set_option maxHeartbeats 1000000 in
/-- On whole staging buffers, the inputs' holding `x0`, `x1`, `x2` and the output's holding anything, the body
    runs to its end without a fault, leaving the inputs as they were and the output buffer at `tileOut x0 x1 x2`. -/
theorem sound_kernel (c : Dev nD) (E : Set ℕ) (i : grid0.Coords)
    (arg1 : Memref sig .tc .vmem S2000x384 .bf16) (harg1 : arg1.IsWhole)
    (arg2 : Memref sig .tc .vmem S384x1024 .bf16) (harg2 : arg2.IsWhole)
    (arg3 : Memref sig .tc .vmem S1x1024 .f32) (harg3 : arg3.IsWhole)
    (arg4 : Memref sig .tc .vmem S2000x1024 .f32) (harg4 : arg4.IsWhole)
    (x0 : Vec F S2000x384 .bf16) (x1 : Vec F S384x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.Kernel.Hand

end
-- ==== Proof.RunBits.lean ====
/-
  The launch as a whole: the proof data, the body at every grid point, the run, and the frame.

  The grid has 25 points; point `t` works on rows 2000·t … 2000·t + 1999. At every point the three input
  buffers hold the point's blocks, the body leaves them so, and it leaves in the output buffer the value of one
  body run on those blocks; the pipeline writes that buffer back as block `t` of the result array. Nothing is
  carried from point to point and the body uses nothing but its four buffers, so what lies outside them passes
  through untouched. The library's launch theorem turns the body's triple at every point into a run of the whole
  program that ends with each window's array at what the proof data says and everything else as the launch found it.
-/
import proofs.«181198_j19378892439727_1_alg».proof.Proof.EntryBits
import proofs.«181198_j19378892439727_1_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input buffer at the
    point's block and the output buffer at one body run on those blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = tileOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; what the body
    does not use passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault,
    with each window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its four arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.EntryIdeal.lean ====
/-
  The state in which the one kernel launch finds the device, and what a run of the launch says about the
  program's argument arrays.

  Before the launch the program runs 58 array operations on the host side: it slices the two rows of the edge
  list, gathers the features of every edge's endpoint, adds them up per node, divides by the node's degree
  (at least one), puts a node's own features beside the two means (a 50000 × 384 matrix), narrows that matrix
  and the weights to the matrix unit's input format, and lays the bias out as a row. Each of these writes a
  buffer of its own and none of them writes an argument, so the launch finds every argument as the program
  was given it; the arrays the launch's four windows slide over are three of those host results and the
  (not yet written) result array.

  A window's block at a grid point is a rectangle of its array. Each of the three input windows is read-only
  for the body, so its staging buffer holds the block of the current point whether or not the point fetched it
  afresh (the weights and the bias row are fetched once, at the first point, and never move).
-/
import proofs.«181198_j19378892439727_1_alg».proof.Proof.Gen.KernelIdeal.Launch
import proofs.«181198_j19378892439727_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations before the launch -/

/-- What core `c`'s buffers hold when the launch begins: the given memory with every host operation's result
    written into that operation's own buffer, in program order. -/
abbrev V (c : Dev nD) (b : Ref sig .tc) : Buf (Elt F) ((c : Thread nD τ).loc b) := StableHlo.after hostOps0 (fun b => m (c, b)) b

/-- No host operation allocates anything: each writes a buffer that exists from the start. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The node features are written by no host operation: the launch finds them as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor is the edge list. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the bias. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`: the rectangle of the window's array, as the launch finds it, that
    the point's block index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window of the feature matrix: its staging buffer holds the point's 2000 rows at every point,
    for any proof data over these arrays whose body leaves the block as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' window: one block, the whole matrix, in place from the first point on. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's window: likewise one block, the whole row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the launch to the argument arrays -/

/-- A run that ends with every array of the launch as the proof data computes it, and every other buffer as
    the launch found it, ends with the four arguments as given: no window slides over an argument, and the
    launch found each argument unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.KernelIdeal.Hand

end
-- ==== Proof.BodyIdeal.lean ====
/-
  One run of the kernel body.

  The body is handed four whole staging buffers: a block of 2000 rows of the feature matrix, the whole weight
  matrix, the bias row, and the buffer its 2000 × 1024 result block goes into. It loads the three inputs whole,
  multiplies the row block into the weights, adds the bias row to every row, takes the maximum with zero, and
  stores the result over the whole output buffer in a single store. (It also loads the output buffer before
  storing; the loaded value is not used.) So after the body the output buffer holds exactly the stored value, a
  function of the three input blocks alone, and the inputs are as they were.
-/
import proofs.«181198_j19378892439727_1_alg».proof.Proof.Gen.KernelIdeal.Skeleton
import proofs.«181198_j19378892439727_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rRows : Rect S2000x384 := Rect.unit (s := S2000x384) ![0, 0] S2000x384.size inb_S2000x384_S2000x384_0_0
abbrev rWeights : Rect S384x1024 := Rect.unit (s := S384x1024) ![0, 0] S384x1024.size inb_S384x1024_S384x1024_0_0
abbrev rBias : Rect S1x1024 := Rect.unit (s := S1x1024) ![0, 0] S1x1024.size inb_S1x1024_S1x1024_0_0
abbrev rOut : Rect S2000x1024 := Rect.unit (s := S2000x1024) ![0, 0] S2000x1024.size inb_S2000x1024_S2000x1024_0_0

/-! ## What the body leaves in the output buffer -/

/-- The output buffer after the body, from the three input buffers' contents: its one store, of the body's
    arithmetic applied to the three loads, read back as a buffer. -/
def tileOut (x0 : Vec F S2000x384 .bf16) (x1 : Vec F S384x1024 .bf16) (x2 : Vec F S1x1024 .f32) : Vec F S2000x1024 .f32 :=
  View.canon [⟨rOut, k0_pay1 (View.ld x0 rRows) (View.ld x1 rWeights) (View.ld x2 rBias)⟩]

/-- The one store covers the whole buffer. -/
theorem tileOut_cover (p0 : Vec F S2000x1024 .f32) (y : S2000x1024.Idx) :
    ∃ pc ∈ ([⟨rOut, p0⟩] : List (View.Piece (Elt F) S2000x1024 .f32)), y ∈ pc.1.set :=
  View.cover_of_tiled [⟨rOut, p0⟩] S2000x1024.size (by rfl) y

/-! ## The body's triple -/

set_option maxHeartbeats 1000000 in
/-- On whole staging buffers, the inputs' holding `x0`, `x1`, `x2` and the output's holding anything, the body
    runs to its end without a fault, leaving the inputs as they were and the output buffer at `tileOut x0 x1 x2`. -/
theorem sound_kernel (c : Dev nD) (E : Set ℕ) (i : grid0.Coords)
    (arg1 : Memref sig .tc .vmem S2000x384 .bf16) (harg1 : arg1.IsWhole)
    (arg2 : Memref sig .tc .vmem S384x1024 .bf16) (harg2 : arg2.IsWhole)
    (arg3 : Memref sig .tc .vmem S1x1024 .f32) (harg3 : arg3.IsWhole)
    (arg4 : Memref sig .tc .vmem S2000x1024 .f32) (harg4 : arg4.IsWhole)
    (x0 : Vec F S2000x384 .bf16) (x1 : Vec F S384x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.KernelIdeal.Hand

end
-- ==== Proof.RunIdeal.lean ====
/-
  The launch as a whole: the proof data, the body at every grid point, the run, and the frame.

  The grid has 25 points; point `t` works on rows 2000·t … 2000·t + 1999. At every point the three input
  buffers hold the point's blocks, the body leaves them so, and it leaves in the output buffer the value of one
  body run on those blocks; the pipeline writes that buffer back as block `t` of the result array. Nothing is
  carried from point to point and the body uses nothing but its four buffers, so what lies outside them passes
  through untouched. The library's launch theorem turns the body's triple at every point into a run of the whole
  program that ends with each window's array at what the proof data says and everything else as the launch found it.
-/
import proofs.«181198_j19378892439727_1_alg».proof.Proof.EntryIdeal
import proofs.«181198_j19378892439727_1_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input buffer at the
    point's block and the output buffer at one body run on those blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = tileOut (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; what the body
    does not use passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault,
    with each window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its four arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.TileValue.lean ====
/-
  One entry of the block that the kernel's body writes.

  The body reads a block `a` of 2000 rows of 384 features, the whole weight matrix `w` (384 × 1024) and the
  bias as a single row `b` (1 × 1024), and writes a block of 2000 × 1024 entries. Read at row `p` and column
  `q` of the block, the written value is

      max (Σ_k a(p, k) · w(k, q) + b(0, q)) 0

  over the extended reals. Four observations give this. A cast of an array to its own shape changes nothing.
  A matrix product accumulated into an array of zeros is, entry by entry, the plain sum over the contracted
  axis of the products of the operands' entries; with one contracted axis of extent 384 that sum runs over
  `k : Fin 384`, the left operand read at (p, k) and the right at (k, q). A single row repeated on every row
  reads, at (p, q), the row's entry q. The rectifier compares against the zero word, which is left as the
  word the program prints and is never evaluated.
-/
import proofs.«181198_j19378892439727_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.SageLinear

open Idealize.ShloMosaic Idealize.ShloMosaic.ValueIdx Cert.KernelIdeal

/-! ## The operands' indices of the product, coordinate by coordinate

At output index `i` and contraction position `c`, the left operand is read at (row of `i`, `c`) and the right
operand at (`c`, column of `i`). -/

/-- The left operand's row is the output's row. -/
theorem tile_lhs_0 (i : S2000x1024.Idx) (c : dot_S2000x384_S384x1024_S2000x1024_1_0_0_1_n_n.contr.Idx) :
    (dot_S2000x384_S384x1024_S2000x1024_1_0_0_1_n_n.lhsIdx i c 0).val = (i 0).val := by
  unfold DotDims.lhsIdx
  rw [dif_neg (show ¬(0 : Fin S2000x384.rank) ∈ dot_S2000x384_S384x1024_S2000x1024_1_0_0_1_n_n.lhsBatch by decide),
    dif_pos (show (0 : Fin S2000x384.rank) ∈ dot_S2000x384_S384x1024_S2000x1024_1_0_0_1_n_n.lhsNonContracting by decide)]
  rfl

/-- The left operand's column is the contraction position. -/
theorem tile_lhs_1 (i : S2000x1024.Idx) (c : dot_S2000x384_S384x1024_S2000x1024_1_0_0_1_n_n.contr.Idx) :
    (dot_S2000x384_S384x1024_S2000x1024_1_0_0_1_n_n.lhsIdx i c 1).val = (c ⟨0, by decide⟩).val :=
  dot_S2000x384_S384x1024_S2000x1024_1_0_0_1_n_n.lhsIdx_val_of_single rfl i c

/-- The right operand's row is the contraction position. -/
theorem tile_rhs_0 (i : S2000x1024.Idx) (c : dot_S2000x384_S384x1024_S2000x1024_1_0_0_1_n_n.contr.Idx) :
    (dot_S2000x384_S384x1024_S2000x1024_1_0_0_1_n_n.rhsIdx i c 0).val = (c ⟨0, by decide⟩).val :=
  dot_S2000x384_S384x1024_S2000x1024_1_0_0_1_n_n.rhsIdx_val_of_single rfl i c

/-- The right operand's column is the output's column. -/
theorem tile_rhs_1 (i : S2000x1024.Idx) (c : dot_S2000x384_S384x1024_S2000x1024_1_0_0_1_n_n.contr.Idx) :
    (dot_S2000x384_S384x1024_S2000x1024_1_0_0_1_n_n.rhsIdx i c 1).val = (i 1).val := by
  unfold DotDims.rhsIdx
  rw [dif_neg (show ¬(1 : Fin S384x1024.rank) ∈ dot_S2000x384_S384x1024_S2000x1024_1_0_0_1_n_n.rhsBatch by decide),
    dif_pos (show (1 : Fin S384x1024.rank) ∈ dot_S2000x384_S384x1024_S2000x1024_1_0_0_1_n_n.rhsNonContracting by decide)]
  rfl

/-! ## The product into zeros, at an entry -/

/-- The block product accumulated into zeros, read at (p, q): the inner product of row `p` of the left block
    with column `q` of the right matrix, as a sum over `Fin 384`. -/
theorem tile_matmul_at (a : FVec Ideal S2000x384 .bf16) (w : FVec Ideal S384x1024 .bf16) (p : Fin 2000) (q : Fin 1024) :
    FloatOps.matmul dot_S2000x384_S384x1024_S2000x1024_1_0_0_1_n_n none a w (constant S2000x1024 .f32 0x00000000#32) (ix2 p q)
      = ∑ k : Fin 384, a (ix2 p k) * w (ix2 k q) := by
  rw [Ideal.matmul_constant_zero_apply,
    ← Equiv.sum_comp (contrEquiv1 dot_S2000x384_S384x1024_S2000x1024_1_0_0_1_n_n 384 rfl rfl).symm]
  refine Finset.sum_congr rfl fun k _ => ?_
  have hk := contrEquiv1_symm_val dot_S2000x384_S384x1024_S2000x1024_1_0_0_1_n_n 384 rfl rfl k
  have el : dot_S2000x384_S384x1024_S2000x1024_1_0_0_1_n_n.lhsIdx (ix2 p q)
      ((contrEquiv1 dot_S2000x384_S384x1024_S2000x1024_1_0_0_1_n_n 384 rfl rfl).symm k) = ix2 p k :=
    funext fun ax => Fin.ext (by
      match ax with
      | ⟨0, _⟩ => exact tile_lhs_0 _ _
      | ⟨1, _⟩ => exact (tile_lhs_1 _ _).trans hk)
  have er : dot_S2000x384_S384x1024_S2000x1024_1_0_0_1_n_n.rhsIdx (ix2 p q)
      ((contrEquiv1 dot_S2000x384_S384x1024_S2000x1024_1_0_0_1_n_n 384 rfl rfl).symm k) = ix2 k q :=
    funext fun ax => Fin.ext (by
      match ax with
      | ⟨0, _⟩ => exact (tile_rhs_0 _ _).trans hk
      | ⟨1, _⟩ => exact tile_rhs_1 _ _)
  rw [el, er]

/-! ## The stored value at an entry -/

/-- The value the body stores, at row `p` and column `q` of its block. -/
theorem tile_at (v0 : Vec Ideal S2000x384 .bf16) (v2 : Vec Ideal S384x1024 .bf16) (v5 : Vec Ideal S1x1024 .f32)
    (p : Fin 2000) (q : Fin 1024) :
    Cert.KernelIdeal.Gen.k0_pay1 (F := Ideal) v0 v2 v5 (ix2 p q)
      = max ((∑ k : Fin 384, v0 (ix2 p k) * v2 (ix2 k q)) + v5 (ix2 (0 : Fin 1) q)) (Ideal.ofBits .f32 0x00000000#32) := by
  unfold Cert.KernelIdeal.Gen.k0_pay1
  rw [shapeCast_self, shapeCast_self, shapeCast_self]
  rw [maximumf_apply, addf_apply, broadcast_apply, broadcastTo_1b_ab_apply]
  refine congrArg₂ max (congrArg (· + v5 (ix2 (0 : Fin 1) q)) (tile_matmul_at v0 v2 p q)) rfl

end Cert.SageLinear

end
-- ==== Proof.Spec.lean ====
/-
  The function both programs compute in their last stage, stated once over plain index functions.

  A node-feature matrix `h` (50000 rows of 384 features: a node's own features beside the means of its
  in- and out-neighbours' features), a weight matrix `w` (384 × 1024) and a bias row `b` (1024 entries) are
  combined into the layer's output, entry by entry:

      out h w b (r, c) = max (Σ_k h(r, k) · w(k, c) + b(c)) 0

  over the extended reals. The zero of the rectifier is kept as the float word both programs print
  for it, so it is never evaluated. Row `r` of the output depends only on row `r` of `h`, on all of `w`
  and on all of `b`: this is why a kernel may compute the output a block of rows at a time.
-/
import Idealize.ShloMosaic.PureOps.Ideal
import Idealize.ShloMosaic.Lib.ValueIdx

noncomputable section

namespace Cert.SageLinear

open Idealize.ShloMosaic Idealize.ShloMosaic.ValueIdx

/-- The rectified affine map at row `r` and column `c`: the inner product of row `r` of `h` with column
    `c` of `w`, plus entry `c` of the bias, against zero. -/
def outAt (h : (⟨2, ![50000, 384]⟩ : Shape).Idx → EReal) (w : (⟨2, ![384, 1024]⟩ : Shape).Idx → EReal)
    (b : (⟨1, ![1024]⟩ : Shape).Idx → EReal) (r : Fin 50000) (c : Fin 1024) : EReal :=
  max ((∑ k : Fin 384, h (ix2 r k) * w (ix2 k c)) + b (ix1 c)) (Ideal.ofBits .f32 0x00000000#32)

/-- The whole output array: `outAt` at the two coordinates of the index. -/
def out (h : (⟨2, ![50000, 384]⟩ : Shape).Idx → EReal) (w : (⟨2, ![384, 1024]⟩ : Shape).Idx → EReal)
    (b : (⟨1, ![1024]⟩ : Shape).Idx → EReal) : (⟨2, ![50000, 1024]⟩ : Shape).Idx → EReal :=
  fun i => outAt h w b ⟨(i 0).val, (i 0).isLt⟩ ⟨(i 1).val, (i 1).isLt⟩

theorem out_ix2 (h : (⟨2, ![50000, 384]⟩ : Shape).Idx → EReal) (w : (⟨2, ![384, 1024]⟩ : Shape).Idx → EReal)
    (b : (⟨1, ![1024]⟩ : Shape).Idx → EReal) (r : Fin 50000) (c : Fin 1024) :
    out h w b (ix2 r c) = outAt h w b r c := rfl

end Cert.SageLinear

end
-- ==== Proof.ValueIdeal.lean ====
/-
  The result array of the idealized kernel program, as one function of the arrays its launch reads.

  Write H for the 50000 × 384 feature matrix, W for the 384 × 1024 weights and B for the 1 × 1024 bias row as
  the launch finds them. Grid point `t` is handed rows 2000·t … 2000·t + 1999 of H, all of W and all of B, and
  one body run on these leaves, at row `p` and column `q` of its output buffer,

      max (Σ_k H(2000·t + p, k) · W(k, q) + B(0, q)) 0,

  which is entry (2000·t + p, q) of `out H W (row of B)`: a row of the output needs only the same row of H. The
  point writes its buffer back as rows 2000·t … 2000·t + 1999 of the result, and the 25 row blocks together are
  all 50000 rows. So after the run the result array is `out H W (row of B)` everywhere.
-/
import proofs.«181198_j19378892439727_1_alg».proof.Proof.RunIdeal
import proofs.«181198_j19378892439727_1_alg».proof.Proof.TileValue
import proofs.«181198_j19378892439727_1_alg».proof.Proof.Spec
import Idealize.ShloMosaic.Lib.Pipeline.Value
import Idealize.ShloMosaic.Lib.ValueIdx

set_option maxRecDepth 16384

noncomputable section

namespace Cert.SageLinear

open Idealize.ShloMosaic Idealize.ShloMosaic.ValueIdx

/-- The one row of a 1 × 1024 array, as a vector of 1024 entries. -/
def rowOf (B : (⟨2, ![1, 1024]⟩ : Shape).Idx → EReal) : (⟨1, ![1024]⟩ : Shape).Idx → EReal :=
  fun j => B (ix2 (0 : Fin 1) ⟨(j 0).val, (j 0).isLt⟩)

theorem outAt_congr (h : (⟨2, ![50000, 384]⟩ : Shape).Idx → EReal) (w : (⟨2, ![384, 1024]⟩ : Shape).Idx → EReal)
    (b : (⟨1, ![1024]⟩ : Shape).Idx → EReal) {r r' : Fin 50000} {c c' : Fin 1024} (hr : r.val = r'.val) (hc : c.val = c'.val) :
    outAt h w b r c = outAt h w b r' c' := by
  rw [Fin.ext hr, Fin.ext hc]

/-- One body run on a block of 2000 rows starting at row `r0` of `H`, on all of `W` and on the row `B`,
    leaves at (p, q) the entry (r0 + p, q) of the whole output. -/
theorem tile_block (x0 : Vec Ideal Cert.KernelIdeal.S2000x384 .bf16) (x1 : Vec Ideal Cert.KernelIdeal.S384x1024 .bf16)
    (x2 : Vec Ideal Cert.KernelIdeal.S1x1024 .f32)
    (H : (⟨2, ![50000, 384]⟩ : Shape).Idx → EReal) (W : (⟨2, ![384, 1024]⟩ : Shape).Idx → EReal)
    (B : (⟨2, ![1, 1024]⟩ : Shape).Idx → EReal) (r0 : ℕ) (hr0 : r0 + 2000 ≤ 50000)
    (h0 : ∀ (p : Fin 2000) (k : Fin 384), x0 (ix2 p k) = H (ix2 (⟨r0 + p.val, by omega⟩ : Fin 50000) k))
    (h1 : ∀ (k : Fin 384) (q : Fin 1024), x1 (ix2 k q) = W (ix2 k q))
    (h2 : ∀ q : Fin 1024, x2 (ix2 (0 : Fin 1) q) = B (ix2 (0 : Fin 1) q))
    (p : Fin 2000) (q : Fin 1024) :
    Cert.KernelIdeal.Gen.k0_pay1 (F := Ideal) x0 x1 x2 (ix2 p q) = outAt H W (rowOf B) (⟨r0 + p.val, by omega⟩ : Fin 50000) q := by
  rw [tile_at]
  unfold outAt rowOf
  simp only [h0, h1, h2]

end Cert.SageLinear

namespace Cert.KernelIdeal.Hand

open Cert.KernelIdeal Cert.KernelIdeal.Gen Idealize.ShloMosaic Idealize.ShloMosaic.TcCoe Idealize.SL.Sem
open Idealize.ShloMosaic.ValueIdx Cert.SageLinear
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The block indices over the grid: the feature window and the result window move together down the rows,
    one block per point; the weights and the bias row never move. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every one of the 25 row blocks is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of `out` of the three arrays the launch reads. -/
theorem flushed_eq (c : Dev nD) (t : Fin cfg0.N) :
    (dats m 0 c).flushed 3 t = ((cfg0.win 3).blk t).view.read (Elt Ideal)
      (out (V m c main_v43) (V m c main_v44) (rowOf (V m c main_v45))) := by
  show (cfg0.win 3).cut (grid0.coords t) ((dats m 0 c).after 3 t) = _
  rw [after0_3]
  unfold tileOut
  rw [View.canon_unit_zero hz2]
  simp only [View.ld_unit_zero (S := S2000x384) hz2, View.ld_unit_zero (S := S384x1024) hz2, View.ld_unit_zero (S := S1x1024) hz2]
  obtain ⟨e0, e1, e2, e3, e4, e5, e6, e7⟩ := idx_facts t
  funext j
  have hj0 : (j 0).val < 2000 := (j 0).isLt
  have hj1 : (j 1).val < 1024 := (j 1).isLt
  have hj : j = ix2 (⟨(j 0).val, hj0⟩ : Fin 2000) (⟨(j 1).val, hj1⟩ : Fin 1024) :=
    funext fun a => by match a with | ⟨0, _⟩ => rfl | ⟨1, _⟩ => rfl
  show k0_pay1 (F := Ideal) (iblk m c 0 t) (iblk m c 1 t) (iblk m c 2 t) j
    = out (V m c main_v43) (V m c main_v44) (rowOf (V m c main_v45)) (((cfg0.win 3).blk t).view.emb j)
  refine (congrArg (k0_pay1 (F := Ideal) (iblk m c 0 t) (iblk m c 1 t) (iblk m c 2 t)) hj).trans ?_
  refine (tile_block (iblk m c 0 t) (iblk m c 1 t) (iblk m c 2 t) (V m c main_v43) (V m c main_v44) (V m c main_v45)
    (win0_3.index t (0 : Fin 2) * 2000) (by omega) ?_ ?_ ?_ ⟨(j 0).val, hj0⟩ ⟨(j 1).val, hj1⟩).trans ?_
  · intro p k
    show V m c main_v43 (((cfg0.win 0).blk t).view.emb (ix2 p k)) = V m c main_v43 _
    refine congrArg (V m c main_v43) ?_
    funext a; apply Fin.ext
    match a with
    | ⟨0, _⟩ => show win0_0.index t (0 : Fin 2) * 2000 + 1 * p.val = win0_3.index t (0 : Fin 2) * 2000 + p.val; omega
    | ⟨1, _⟩ => show win0_0.index t (1 : Fin 2) * 384 + 1 * k.val = k.val; omega
  · intro k q
    show V m c main_v44 (((cfg0.win 1).blk t).view.emb (ix2 k q)) = V m c main_v44 _
    refine congrArg (V m c main_v44) ?_
    funext a; apply Fin.ext
    match a with
    | ⟨0, _⟩ => show win0_1.index t (0 : Fin 2) * 384 + 1 * k.val = k.val; omega
    | ⟨1, _⟩ => show win0_1.index t (1 : Fin 2) * 1024 + 1 * q.val = q.val; omega
  · intro q
    show V m c main_v45 (((cfg0.win 2).blk t).view.emb (ix2 (0 : Fin 1) q)) = V m c main_v45 _
    refine congrArg (V m c main_v45) ?_
    funext a; apply Fin.ext
    match a with
    | ⟨0, _⟩ => show win0_2.index t (0 : Fin 2) * 1 + 1 * 0 = 0; omega
    | ⟨1, _⟩ => show win0_2.index t (1 : Fin 2) * 1024 + 1 * q.val = q.val; omega
  · refine outAt_congr _ _ _ ?_ ?_
    · show win0_3.index t (0 : Fin 2) * 2000 + (j 0).val = win0_3.index t (0 : Fin 2) * 2000 + 1 * (j 0).val; omega
    · show (j 1).val = win0_3.index t (1 : Fin 2) * 1024 + 1 * (j 1).val; omega

/-- An index of the result array lies in point `t`'s block iff each coordinate is in the block's range. -/
theorem mem_blk (t : Fin cfg0.N) (i : S50000x1024.Idx) :
    i ∈ ((cfg0.win 3).blk t).view.set ↔ ∀ a : Fin 2, win0_3.index t a * S2000x1024.size a ≤ (i a).val ∧ (i a).val < win0_3.index t a * S2000x1024.size a + S2000x1024.size a := by
  show i ∈ ((View.whole main_v46).slice (win0_3.rect t)).set ↔ _
  rw [View.set_slice_whole, Rect.mem_set_unit]
  exact Iff.rfl

/-- Every index of the result array lies in the block of the point that handles its row: row `r` is in block `r / 2000`. -/
theorem covered (i : S50000x1024.Idx) : ∃ t : Fin cfg0.N, (cfg0.win 3).flush t = true ∧ i ∈ ((cfg0.win 3).blk t).view.set := by
  have hi0 : (i 0).val < 50000 := (i 0).isLt
  have hi1 : (i 1).val < 1024 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 1024 ≤ (i 1).val ∧ (i 1).val < win0_3.index t (1 : Fin 2) * 1024 + 1024; omega

/-- The result array after the run. -/
theorem final (c : Dev nD) :
    (dats m 0 c).arrAt 3 cfg0.N = out (V m c main_v43) (V m c main_v44) (rowOf (V m c main_v45)) :=
  (dats m 0 c).arrAt_eq_of_cover 3 _ (fun t _ => flushed_eq m c t) covered

/-- The run of the idealized kernel program with its result named: `out` of the three arrays the launch reads;
    the arguments unchanged. -/
theorem run_value : θ_run defs (onTc (τ := τ) (main (F := Ideal))) ⟨m, fun _ => 0, ρ⟩ fun r => ∀ c : Dev nD,
      r.2.mem ((c : Thread nD τ).loc main_v46) = out (V m c main_v43) (V m c main_v44) (rowOf (V m c main_v45))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Hand

end
-- ==== Proof.HostIdeal.lean ====
/-
  What the launch of the idealized kernel program finds in its weights array and its bias row, in terms of
  the program's arguments.

  * The weights are the weight argument narrowed: over the extended reals, the weight argument itself.
  * The bias row is the bias argument laid out as one row: entry (0, q) is entry q of the argument.
-/
import proofs.«181198_j19378892439727_1_alg».proof.Proof.EntryIdeal
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 4000000 in
/-- The weights as the launch finds them are the weight argument. -/
theorem V_weights (c : Dev nD) : (V m c main_v44 : S384x1024.Idx → EReal) = m ((c : Thread nD τ).loc main_arg2) := by
  show StableHlo.after hostOps0 (fun b => m (c, b)) (Proc.devRef .tc main_v44) = _
  after_results_simp
  rfl

set_option maxHeartbeats 4000000 in
/-- The bias row as the launch finds it: entry (0, q) is entry q of the bias argument. -/
theorem V_bias (c : Dev nD) (q : Fin 1024) :
    (V m c main_v45 : S1x1024.Idx → EReal) (ix2 (0 : Fin 1) q) = (m ((c : Thread nD τ).loc main_arg3) : S1024.Idx → EReal) (ix1 q) := by
  have e : (V m c main_v45 : S1x1024.Idx → EReal)
      = shapeCast S1x1024 (m ((c : Thread nD τ).loc main_arg3) : S1024.Idx → EReal) Facts₀.shapeCasts_S1024_S1x1024 := by
    show StableHlo.after hostOps0 (fun b => m (c, b)) (Proc.devRef .tc main_v45) = _
    after_results_simp
    rfl
  rw [e]
  exact shapeCast_a_1a_apply _ _ 0 q

end Cert.KernelIdeal.Hand

end
-- ==== Proof.FeatIdeal.lean ====
/-
  The feature matrix the launch of the idealized kernel program reads, in terms of the program's arguments.

  The kernel program builds its feature matrix with the same host operations, in the same order, as the
  reference builds its own: the two rows of the edge list; negative indices wrapped by adding 50000; the
  features of every edge's source (or target) gathered; these summed per target (or source) node, and the
  number of such edges counted per node, both by accumulating scatters; the count replaced by one where it is
  smaller; the sums divided by the counts. That gives the mean over in-neighbours and, with source and target
  exchanged, the mean over out-neighbours. The matrix is a node's own features, the first mean and the second
  mean side by side, narrowed to the matrix unit's input format, which over the extended reals changes nothing.

  The two means are, term for term, the reference's stages of the same name applied to the same two
  arguments, and the concatenation of three operands is a function of its operands. So the launch finds the
  reference's concatenated feature matrix of the kernel program's own arguments. The gather and scatter
  chains are compared as wholes and never opened.
-/
import proofs.«181198_j19378892439727_1_alg».proof.Proof.EntryIdeal
import proofs.«181198_j19378892439727_1_alg».proof.Proof.Gen.ReferenceIdeal.Read
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Three 50000 × 128 arrays side by side along the feature axis, as a function of the three. -/
def sideBySide (p q r : S50000x128.Idx → EReal) : S50000x384.Idx → EReal :=
  concatenate S50000x384 1 [⟨S50000x128, p⟩, ⟨S50000x128, q⟩, ⟨S50000x128, r⟩]
    Facts₀.concatenates_S50000x128_S50000x128_S50000x128_S50000x384_d1

/-- The concatenating host operation leaves in its result buffer the three operand buffers' contents side by side. -/
theorem sideBySide_result' (F : Valuation τ sig (Elt Ideal)) :
    (nary (τ := τ) ![main_arg0, main_v22, main_v41] main_v42 (fun u => concatenate S50000x384 1 [⟨S50000x128, u 0⟩, ⟨S50000x128, u 1⟩, ⟨S50000x128, u 2⟩] Facts₀.concatenates_S50000x128_S50000x128_S50000x128_S50000x384_d1)).result F (no_index (Proc.devRef .tc main_v42))
      = sideBySide (F (Proc.devRef .tc main_arg0)) (F (Proc.devRef .tc main_v22)) (F (Proc.devRef .tc main_v41)) :=
  nary_result ..

set_option maxHeartbeats 8000000 in
/-- The mean over in-neighbours as the launch finds it is the reference's stage of the same arguments. -/
theorem V_meanIn (c : Dev nD) :
    (V m c main_v22 : S50000x128.Idx → EReal)
      = Cert.ReferenceIdeal.Read.val_main_v22 (F := Ideal) (m ((c : Thread nD τ).loc main_arg0)) (m ((c : Thread nD τ).loc main_arg1)) := by
  show StableHlo.after hostOps0 (fun b => m (c, b)) (Proc.devRef .tc main_v22) = _
  after_results_simp
  rfl

set_option maxHeartbeats 8000000 in
/-- So is the mean over out-neighbours. -/
theorem V_meanOut (c : Dev nD) :
    (V m c main_v41 : S50000x128.Idx → EReal)
      = Cert.ReferenceIdeal.Read.val_main_v41 (F := Ideal) (m ((c : Thread nD τ).loc main_arg0)) (m ((c : Thread nD τ).loc main_arg1)) := by
  show StableHlo.after hostOps0 (fun b => m (c, b)) (Proc.devRef .tc main_v41) = _
  after_results_simp
  rfl

set_option maxHeartbeats 8000000 in
/-- Narrowing changes nothing over the extended reals: the narrowed matrix is the concatenated one. -/
theorem V_narrowed (c : Dev nD) : (V m c main_v43 : S50000x384.Idx → EReal) = (V m c main_v42 : S50000x384.Idx → EReal) := by
  show StableHlo.after hostOps0 (fun b => m (c, b)) (Proc.devRef .tc main_v43) = StableHlo.after hostOps0 (fun b => m (c, b)) (Proc.devRef .tc main_v42)
  simp (disch := decide) only [after_cons, after_nil, sideBySide_result',
    nullary_result', unary_result', binary_result', ternary_result', reshape_result',
    nullary_result_ne', unary_result_ne', binary_result_ne', ternary_result_ne', reshape_result_ne', nary_result_ne']
  rfl

set_option maxHeartbeats 8000000 in
/-- The concatenated matrix is the node features and the two means, as the launch finds them, side by side. -/
theorem V_concat (c : Dev nD) :
    (V m c main_v42 : S50000x384.Idx → EReal)
      = sideBySide (V m c main_arg0) (V m c main_v22) (V m c main_v41) := by
  show StableHlo.after hostOps0 (fun b => m (c, b)) (Proc.devRef .tc main_v42)
    = sideBySide (StableHlo.after hostOps0 (fun b => m (c, b)) (Proc.devRef .tc main_arg0))
        (StableHlo.after hostOps0 (fun b => m (c, b)) (Proc.devRef .tc main_v22))
        (StableHlo.after hostOps0 (fun b => m (c, b)) (Proc.devRef .tc main_v41))
  simp (disch := decide) only [after_cons, after_nil, sideBySide_result',
    nullary_result', unary_result', binary_result', ternary_result', reshape_result',
    nullary_result_ne', unary_result_ne', binary_result_ne', ternary_result_ne', reshape_result_ne', nary_result_ne']

/-- The feature matrix the launch reads is the reference's concatenated feature matrix of the same node
    features and edge list. -/
theorem V_feat (c : Dev nD) :
    (V m c main_v43 : S50000x384.Idx → EReal)
      = Cert.ReferenceIdeal.Read.val_main_v42 (F := Ideal) (m ((c : Thread nD τ).loc main_arg0)) (m ((c : Thread nD τ).loc main_arg1)) := by
  rw [V_narrowed m c, V_concat m c, V_main_arg0 m c, V_meanIn m c, V_meanOut m c]
  rfl

end Cert.KernelIdeal.Hand

end
-- ==== Proof.RefOut.lean ====
/-
  The reference's last stages compute `out`.

  Once the reference has assembled its node-feature matrix `h` (50000 rows of 384 features), five stages
  remain: the matrix product of `h` with the weights `w` (384 × 1024); the bias `b` laid out as a single
  row and then repeated on all 50000 rows; their sum; and the rectifier, a maximum against a zero repeated at
  every entry. Read at row `r` and column `c`, the product is the sum over `k : Fin 384` of
  h(r, k) · w(k, c), the repeated bias is b(c), and the repeated zero is the zero word, so the last stage is

      max (Σ_k h(r, k) · w(k, c) + b(c)) 0,

  which is `out h w b` at (r, c). The matrix `h` is never opened: the statement holds for whatever the
  earlier stages produce, and is used with `h` kept as one name.
-/
import proofs.«181198_j19378892439727_1_alg».proof.Proof.Gen.ReferenceIdeal.Read
import proofs.«181198_j19378892439727_1_alg».proof.Proof.Spec

noncomputable section

namespace Cert.SageLinear

open Idealize.ShloMosaic Idealize.ShloMosaic.ValueIdx Cert.ReferenceIdeal Cert.ReferenceIdeal.Read

/-! ## The indices the last stages read, at (r, c) -/

/-- The product reads the left operand at (r, k) … -/
theorem ref_lidx (r : Fin 50000) (c : Fin 1024) (k : Fin 384) : lidx_main_v43 (ix2 r c) k = ix2 r k :=
  funext fun a => Fin.ext (by match a with | ⟨0, _⟩ => rfl | ⟨1, _⟩ => rfl)

/-- … and the right operand at (k, c). -/
theorem ref_ridx (r : Fin 50000) (c : Fin 1024) (k : Fin 384) : ridx_main_v43 (ix2 r c) k = ix2 k c :=
  funext fun a => Fin.ext (by match a with | ⟨0, _⟩ => rfl | ⟨1, _⟩ => rfl)

/-- The bias, made a row and repeated on every row, is read at its entry c. -/
theorem ref_bidx (r : Fin 50000) (c : Fin 1024) : idx_main_v44 (idx_main_v45 (ix2 r c)) = ix1 c :=
  funext fun a => Fin.ext (by match a with | ⟨0, _⟩ => rfl)

/-! ## The last stage is `out` -/

/-- The reference's result is `out` of its assembled feature matrix, the weights and the bias. -/
theorem ref_out (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S384x1024, .f32⟩ : BufTy).Contents (Elt Ideal))
    (x3 : (⟨Cert.ReferenceIdeal.S1024, .f32⟩ : BufTy).Contents (Elt Ideal)) :
    Cert.ReferenceIdeal.Read.val_main_v47 (F := Ideal) x0 x1 x2 x3
      = Cert.SageLinear.out (Cert.ReferenceIdeal.Read.val_main_v42 (F := Ideal) x0 x1) x2 x3 := by
  funext i
  obtain ⟨r, c, rfl⟩ : ∃ (r : Fin 50000) (c : Fin 1024), i = ix2 r c := ⟨i 0, i 1, eq_ix2 i⟩
  rw [out_ix2, val_main_v47_apply, val_main_v46_apply, val_main_v43_apply, val_main_v45_apply, val_main_v44_apply,
    val_main_call0_v0_apply, val_main_call0_cst_apply]
  generalize val_main_v42 (F := Ideal) x0 x1 = h
  unfold outAt
  simp only [Ideal.addf_def, Ideal.maximumf_def, Ideal.ofBits_def]
  refine congrArg₂ max (congrArg₂ (· + ·) (Finset.sum_congr rfl fun k _ => ?_) (congrArg x3 (ref_bidx r c))) rfl
  rw [ref_lidx r c k, ref_ridx r c k]

end Cert.SageLinear

end
-- ==== Proof.lean ====
/-
  A mean-aggregating graph layer: kernel against reference.

  Both programs take node features x (50000 × 128), an edge list (2 × 600000), weights W (384 × 1024) and a
  bias b (1024). Both first build, with the same host operations in the same order, the feature matrix
  h = [x | mean of x over in-neighbours | mean of x over out-neighbours] (50000 × 384), and both end with
  max(h·W + b, 0). The reference does the last stage as one matrix product, a broadcast bias and a maximum. The
  kernel program narrows h and W to the matrix unit's input format, lays b out as a row, and launches a body
  over 25 blocks of 2000 rows: each block of rows of h is multiplied into all of W, the bias row is added to
  every row, the maximum with zero is taken, and the block is written back as the same rows of the result.

  Over the extended reals narrowing is the identity, so both results are, entry by entry,
  max(Σ_k h(r, k)·W(k, c) + b(c), 0): the same sum of the same products, taken row by row in the kernel and all
  at once in the reference. No law of arithmetic beyond that is used, and in particular nothing that would need
  the inputs to be finite.

  The five claims: the word-level kernel program and the idealized one each run to the end, fault nowhere and
  leave the arguments unchanged (the launch theorem over the body's triple at every grid point); so does the
  reference (its run, with the result dropped); the idealized kernel program is the word-level one's text read
  over the extended reals with no rewrite applied, so nothing is owed for that; and the two idealized programs,
  started from memories that agree on the arguments, end with equal results.
-/
import proofs.«181198_j19378892439727_1_alg».proof.Defs
import proofs.«181198_j19378892439727_1_alg».proof.Proof.Gen.Kernel
import proofs.«181198_j19378892439727_1_alg».proof.Proof.Gen.KernelIdeal
import proofs.«181198_j19378892439727_1_alg».proof.Proof.Gen.ReferenceIdeal
import proofs.«181198_j19378892439727_1_alg».proof.Proof.Gen.Pre_finite_inputs
import proofs.«181198_j19378892439727_1_alg».proof.Proof.Gen.ReferenceIdeal.Run
import proofs.«181198_j19378892439727_1_alg».proof.Proof.Gen.ReferenceIdeal.Read
import proofs.«181198_j19378892439727_1_alg».proof.Proof.RunBits
import proofs.«181198_j19378892439727_1_alg».proof.Proof.RunIdeal
import proofs.«181198_j19378892439727_1_alg».proof.Proof.ValueIdeal
import proofs.«181198_j19378892439727_1_alg».proof.Proof.HostIdeal
import proofs.«181198_j19378892439727_1_alg».proof.Proof.FeatIdeal
import proofs.«181198_j19378892439727_1_alg».proof.Proof.RefOut
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs, faults nowhere, and leaves its arguments unchanged. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The bias row the launch finds, read as a vector, is the bias argument. -/
theorem bias_row (m : (ℓ : Loc Cert.KernelIdeal.nD Cert.KernelIdeal.τ Cert.KernelIdeal.sig) → Buf (Elt Ideal) ℓ) (c : Dev Cert.KernelIdeal.nD) :
    Cert.SageLinear.rowOf (Cert.KernelIdeal.Hand.V m c Cert.KernelIdeal.main_v45)
      = m ((c : Thread Cert.KernelIdeal.nD Cert.KernelIdeal.τ).loc Cert.KernelIdeal.main_arg3) := by
  funext j
  show (Cert.KernelIdeal.Hand.V m c Cert.KernelIdeal.main_v45 : Cert.KernelIdeal.S1x1024.Idx → EReal) (ix2 (0 : Fin 1) ⟨(j 0).val, (j 0).isLt⟩) = _
  rw [Cert.KernelIdeal.Hand.V_bias m c ⟨(j 0).val, (j 0).isLt⟩]
  exact congrArg _ (funext fun d => by match d with | ⟨0, _⟩ => rfl)

/-- The idealized kernel program's result, in terms of its arguments: `out` of the reference's feature
    matrix, the weights and the bias. -/
theorem kernel_result (m : (ℓ : Loc Cert.KernelIdeal.nD Cert.KernelIdeal.τ Cert.KernelIdeal.sig) → Buf (Elt Ideal) ℓ) (c : Dev Cert.KernelIdeal.nD) :
    Cert.SageLinear.out (Cert.KernelIdeal.Hand.V m c Cert.KernelIdeal.main_v43) (Cert.KernelIdeal.Hand.V m c Cert.KernelIdeal.main_v44)
        (Cert.SageLinear.rowOf (Cert.KernelIdeal.Hand.V m c Cert.KernelIdeal.main_v45))
      = Cert.SageLinear.out
          (Cert.ReferenceIdeal.Read.val_main_v42 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3)) :=
  congr (congr (congrArg Cert.SageLinear.out (Cert.KernelIdeal.Hand.V_feat m c)) (Cert.KernelIdeal.Hand.V_weights m c)) (bias_row m c)

/-- From memories that agree on the arguments, the two idealized programs end with equal results: both at
    `out` of the shared feature matrix, the weights and the bias. -/
theorem algebraic : Cert.algebraic_KernelIdeal_ReferenceIdeal := by
  intro m ρ m' ρ' _ hagree
  refine ⟨fun c => Cert.SageLinear.out
      (Cert.ReferenceIdeal.Read.val_main_v42 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono (fun r h c => ⟨(h c).1.trans (kernel_result m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.SageLinear.ref_out, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
